-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S50000 : Shape := ⟨1, ![50000]⟩
abbrev S1x64 : Shape := ⟨2, ![1, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S64x64 : Shape := ⟨2, ![64, 64]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S64x1 .f32) (main_arg14 : FVec F S1 .f32) (main_arg15 : FVec F S64x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S64x64 .f32) (main_arg10 : FVec F S64 .f32) (main_arg11 : FVec F S128x64 .f32) (main_arg12 : FVec F S64 .f32) (main_arg13 : FVec F S64x1 .f32) (main_arg14 : FVec F S1 .f32) (main_arg15 : FVec F S64x1 .f32) (main_arg16 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x1 .f32) (main_arg8 : FVec F S1 .f32) (main_arg9 : FVec F S64x64 .f32) (main_arg10 : FVec F S64 .f32) (main_arg11 : FVec F S128x64 .f32) (main_arg12 : FVec F S64 .f32) (main_arg13 : FVec F S64x1 .f32) (main_arg14 : FVec F S1 .f32) (main_arg15 : FVec F S64x1 .f32) (main_arg16 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x1 .f32) (main_arg1 : IVec S2x800000 32) (main_arg2 : IVec S50000 32) (main_arg3 : FVec F S1x64 .f32) (main_arg4 : FVec F S64 .f32) (main_arg5 : FVec F S128x64 .f32) (main_arg6 : FVec F S64 .f32) (main_arg7 : FVec F S64x1 .f32) (main_arg8 : FVec F S1 .f32) (main_arg9 : FVec F S64x64 .f32) (main_arg10 : FVec F S64 .f32) (main_arg11 : FVec F S128x64 .f32) (main_arg12 : FVec F S64 .f32) (main_arg13 : FVec F S64x1 .f32) (main_arg14 : FVec F S1 .f32) (main_arg15 : FVec F S64x1 .f32) (main_arg16 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x1 : Shape := ⟨2, ![50000, 1]⟩
abbrev S2x800000 : Shape := ⟨2, ![2, 800000]⟩
abbrev S50000 : Shape := ⟨1, ![50000]⟩
abbrev S1x64 : Shape := ⟨2, ![1, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S64x64 : Shape := ⟨2, ![64, 64]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x1 : Shape := ⟨2, ![1, 1]⟩

abbrev nBuf : Space → Nat
  | .hbm => 168
  | .vmem => 4
  | .smem => 0
  | _ => 0

abbrev hbmTy0_0 (i : Nat) : BufTy := match i % 128 with
  | 0 => ⟨S50000x1, .f32⟩
  | 1 => ⟨S2x800000, .i32⟩
  | 2 => ⟨S50000, .i32⟩
  | 3 => ⟨S1x64, .f32⟩
  | 4 => ⟨S64, .f32⟩
  | 5 => ⟨S128x64, .f32⟩
  | 6 => ⟨S64, .f32⟩
  | 7 => ⟨S64x1, .f32⟩
  | 8 => ⟨S1, .f32⟩
  | 9 => ⟨S64x64, .f32⟩
  | 10 => ⟨S64, .f32⟩
  | 11 => ⟨S128x64, .f32⟩
  | 12 => ⟨S64, .f32⟩
  | 13 => ⟨S64x1, .f32⟩
  | 14 => ⟨S1, .f32⟩
  | 15 => ⟨S64x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S50000x64, .f32⟩
  | 22 => ⟨S1x64, .f32⟩
  | 23 => ⟨S50000x64, .f32⟩
  | 24 => ⟨S50000x64, .f32⟩
  | 25 => ⟨S64x64, .f32⟩
  | 26 => ⟨S50000x64, .f32⟩
  | 27 => ⟨S1x64, .f32⟩
  | 28 => ⟨S50000x64, .f32⟩
  | 29 => ⟨S50000x64, .f32⟩
  | 30 => ⟨S64x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S800000x64, .f32⟩
  | 51 => ⟨S_, .f32⟩
  | 52 => ⟨S800000x64, .f32⟩
  | 53 => ⟨S800000x64, .f32⟩
  | 54 => ⟨S800000x1, .f32⟩
  | 55 => ⟨S1x1, .f32⟩
  | 56 => ⟨S800000x1, .f32⟩
  | 57 => ⟨S800000x1, .f32⟩
  | 58 => ⟨S800000x1, .f32⟩
  | 59 => ⟨S800000x1, .f32⟩
  | 60 => ⟨S_, .f32⟩
  | 61 => ⟨S800000x1, .f32⟩
  | 62 => ⟨S800000x1, .f32⟩
  | 63 => ⟨S_, .f32⟩
  | 64 => ⟨S800000x1, .f32⟩
  | 65 => ⟨S800000x1, .f32⟩
  | 66 => ⟨S800000, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S_, .f32⟩
  | 84 => ⟨S50000x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S64x64, .f32⟩
  | 91 => ⟨S50000x64, .f32⟩
  | 92 => ⟨S1x64, .f32⟩
  | 93 => ⟨S50000x64, .f32⟩
  | 94 => ⟨S50000x64, .f32⟩
  | 95 => ⟨S64x64, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S800000x64, .f32⟩
  | 116 => ⟨S_, .f32⟩
  | 117 => ⟨S800000x64, .f32⟩
  | 118 => ⟨S800000x64, .f32⟩
  | 119 => ⟨S800000x1, .f32⟩
  | 120 => ⟨S1x1, .f32⟩
  | 121 => ⟨S800000x1, .f32⟩
  | 122 => ⟨S800000x1, .f32⟩
  | 123 => ⟨S800000x1, .f32⟩
  | 124 => ⟨S800000x1, .f32⟩
  | 125 => ⟨S_, .f32⟩
  | 126 => ⟨S800000x1, .f32⟩
  | 127 => ⟨S800000x1, .f32⟩
  | _ => ⟨S50000x1, .f32⟩

abbrev hbmTy0_1 (i : Nat) : BufTy := match i % 128 with
  | 0 => ⟨S_, .f32⟩
  | 1 => ⟨S800000x1, .f32⟩
  | 2 => ⟨S800000x1, .f32⟩
  | 3 => ⟨S800000, .f32⟩
  | 4 => ⟨S800000x1, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S800000x64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S_, .f32⟩
  | 21 => ⟨S50000x64, .f32⟩
  | 22 => ⟨S50000x64, .f32⟩
  | 23 => ⟨S_, .f32⟩
  | 24 => ⟨S64x64, .f32⟩
  | 25 => ⟨S50000x1, .i32⟩
  | 26 => ⟨S64x64, .f32⟩
  | 27 => ⟨S_, .f32⟩
  | 28 => ⟨S50000, .f32⟩
  | 29 => ⟨S_, .f32⟩
  | 30 => ⟨S64, .f32⟩
  | 31 => ⟨S50000x1, .i32⟩
  | 32 => ⟨S64, .f32⟩
  | 33 => ⟨S_, .f32⟩
  | 34 => ⟨S64, .f32⟩
  | 35 => ⟨S64, .f32⟩
  | 36 => ⟨S64x1, .f32⟩
  | 37 => ⟨S64x64, .f32⟩
  | 38 => ⟨S64x64, .f32⟩
  | 39 => ⟨S64x1, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | .local _ .vmem, ⟨0, _⟩ => ⟨S64x64, .f32⟩
  | .local _ .vmem, ⟨1, _⟩ => ⟨S64x1, .f32⟩
  | .local _ .vmem, ⟨2, _⟩ => ⟨S1, .f32⟩
  | .local _ .vmem, ⟨3, _⟩ => ⟨S64x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call0_cst : Ref sig .tc := ⟨.hbm, 51, rfl⟩
abbrev main_call0_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_4 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_7 : Ref sig .tc := ⟨.hbm, 97, rfl⟩
abbrev main_v67 : Ref sig .tc := ⟨.hbm, 98, rfl⟩
abbrev main_v68 : Ref sig .tc := ⟨.hbm, 99, rfl⟩
abbrev main_c_8 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_9 : Ref sig .tc := ⟨.hbm, 106, rfl⟩
abbrev main_v74 : Ref sig .tc := ⟨.hbm, 107, rfl⟩
abbrev main_v75 : Ref sig .tc := ⟨.hbm, 108, rfl⟩
abbrev main_c_10 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call2_cst : Ref sig .tc := ⟨.hbm, 116, rfl⟩
abbrev main_call2_v0 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_11 : Ref sig .tc := ⟨.hbm, 125, rfl⟩
abbrev main_v89 : Ref sig .tc := ⟨.hbm, 126, rfl⟩
abbrev main_v90 : Ref sig .tc := ⟨.hbm, 127, rfl⟩
abbrev main_cst_12 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_13 : Ref sig .tc := ⟨.hbm, 133, rfl⟩
abbrev main_v95 : Ref sig .tc := ⟨.hbm, 134, rfl⟩
abbrev main_v96 : Ref sig .tc := ⟨.hbm, 135, rfl⟩
abbrev main_c_14 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_15 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_call3_cst : Ref sig .tc := ⟨.hbm, 148, rfl⟩
abbrev main_call3_v0 : Ref sig .tc := ⟨.hbm, 149, rfl⟩
abbrev main_v107 : Ref sig .tc := ⟨.hbm, 150, rfl⟩
abbrev main_cst_16 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_17 : Ref sig .tc := ⟨.hbm, 155, rfl⟩
abbrev main_v111 : Ref sig .tc := ⟨.hbm, 156, rfl⟩
abbrev main_cst_18 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_19 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S128x64_S64x64_0_0 : S128x64.Slices ![0, 0] S64x64
  slices_S128x64_S64x64_64_0 : S128x64.Slices ![64, 0] S64x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S64x1 : S1x1.Broadcasts S64x1
  dot_S50000x1_S1x64_S50000x64_1_0_0_1_n_n_wf : DotDims.WF S50000x1 S1x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x1_S800000x1_1_0_0_1_n_n_wf : DotDims.WF S800000x64 S64x1 S800000x1 [1] [0] [0] [1] [] []
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.whole (Memref.whole main_v119) false false (stage0_0 0) (sem0_0 0) (Memref.isWhole_whole _) (hstage0_0 0)

abbrev win0_1 : Pipeline.Window sig grid0 :=
  Pipeline.Window.whole (Memref.whole main_arg15) false false (stage0_1 0) (sem0_1 0) (Memref.isWhole_whole _) (hstage0_1 0)

abbrev win0_2 : Pipeline.Window sig grid0 :=
  Pipeline.Window.whole (Memref.whole main_arg16) false false (stage0_2 0) (sem0_2 0) (Memref.isWhole_whole _) (hstage0_2 0)

abbrev win0_3 : Pipeline.Window sig grid0 :=
  Pipeline.Window.whole (Memref.whole main_v120) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S50000 : Shape := ⟨1, ![50000]⟩
abbrev S1x64 : Shape := ⟨2, ![1, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S64x64 : Shape := ⟨2, ![64, 64]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S50000x1, .f32⟩
  | 1 => ⟨S2x800000, .i32⟩
  | 2 => ⟨S50000, .i32⟩
  | 3 => ⟨S1x64, .f32⟩
  | 4 => ⟨S64, .f32⟩
  | 5 => ⟨S128x64, .f32⟩
  | 6 => ⟨S64, .f32⟩
  | 7 => ⟨S64x1, .f32⟩
  | 8 => ⟨S1, .f32⟩
  | 9 => ⟨S64x64, .f32⟩
  | 10 => ⟨S64, .f32⟩
  | 11 => ⟨S128x64, .f32⟩
  | 12 => ⟨S64, .f32⟩
  | 13 => ⟨S64x1, .f32⟩
  | 14 => ⟨S1, .f32⟩
  | 15 => ⟨S64x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S50000x64, .f32⟩
  | 22 => ⟨S1x64, .f32⟩
  | 23 => ⟨S50000x64, .f32⟩
  | 24 => ⟨S50000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S800000x128, .f32⟩
  | 44 => ⟨S800000x64, .f32⟩
  | 45 => ⟨S1x64, .f32⟩
  | 46 => ⟨S800000x64, .f32⟩
  | 47 => ⟨S800000x64, .f32⟩
  | 48 => ⟨S_, .f32⟩
  | 49 => ⟨S800000x64, .f32⟩
  | 50 => ⟨S800000x64, .f32⟩
  | 51 => ⟨S800000x1, .f32⟩
  | 52 => ⟨S1x1, .f32⟩
  | 53 => ⟨S800000x1, .f32⟩
  | 54 => ⟨S800000x1, .f32⟩
  | 55 => ⟨S800000x1, .f32⟩
  | 56 => ⟨S800000x1, .f32⟩
  | 57 => ⟨S_, .f32⟩
  | 58 => ⟨S800000x1, .f32⟩
  | 59 => ⟨S800000x1, .f32⟩
  | 60 => ⟨S_, .f32⟩
  | 61 => ⟨S800000x1, .f32⟩
  | 62 => ⟨S800000x1, .f32⟩
  | 63 => ⟨S800000, .f32⟩
  | 64 => ⟨S800000x1, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S800000x64, .f32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S800000x128, .f32⟩
  | 106 => ⟨S800000x64, .f32⟩
  | 107 => ⟨S1x64, .f32⟩
  | 108 => ⟨S800000x64, .f32⟩
  | 109 => ⟨S800000x64, .f32⟩
  | 110 => ⟨S_, .f32⟩
  | 111 => ⟨S800000x64, .f32⟩
  | 112 => ⟨S800000x64, .f32⟩
  | 113 => ⟨S800000x1, .f32⟩
  | 114 => ⟨S1x1, .f32⟩
  | 115 => ⟨S800000x1, .f32⟩
  | 116 => ⟨S800000x1, .f32⟩
  | 117 => ⟨S800000x1, .f32⟩
  | 118 => ⟨S800000x1, .f32⟩
  | 119 => ⟨S_, .f32⟩
  | 120 => ⟨S800000x1, .f32⟩
  | 121 => ⟨S800000x1, .f32⟩
  | 122 => ⟨S_, .f32⟩
  | 123 => ⟨S800000x1, .f32⟩
  | 124 => ⟨S800000x1, .f32⟩
  | 125 => ⟨S800000, .f32⟩
  | 126 => ⟨S800000x1, .f32⟩
  | 127 => ⟨S_, .i32⟩
  | _ => ⟨S50000x1, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S800000x64, .f32⟩
  | 9 => ⟨S800000x64, .f32⟩
  | 10 => ⟨S_, .f32⟩
  | 11 => ⟨S50000x64, .f32⟩
  | 12 => ⟨S800000x1, .i32⟩
  | 13 => ⟨S50000x64, .f32⟩
  | 14 => ⟨S_, .f32⟩
  | 15 => ⟨S50000x64, .f32⟩
  | 16 => ⟨S50000x64, .f32⟩
  | 17 => ⟨S_, .f32⟩
  | 18 => ⟨S64x64, .f32⟩
  | 19 => ⟨S50000x1, .i32⟩
  | 20 => ⟨S64x64, .f32⟩
  | 21 => ⟨S_, .f32⟩
  | 22 => ⟨S50000, .f32⟩
  | 23 => ⟨S_, .f32⟩
  | 24 => ⟨S64, .f32⟩
  | 25 => ⟨S50000x1, .i32⟩
  | 26 => ⟨S64, .f32⟩
  | 27 => ⟨S_, .f32⟩
  | 28 => ⟨S64, .f32⟩
  | 29 => ⟨S64, .f32⟩
  | 30 => ⟨S64x1, .f32⟩
  | 31 => ⟨S64x64, .f32⟩
  | 32 => ⟨S64x64, .f32⟩
  | 33 => ⟨S64x1, .f32⟩
  | 34 => ⟨S1x1, .f32⟩
  | 35 => ⟨S64x1, .f32⟩
  | 36 => ⟨S64x1, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call0_cst : Ref sig .tc := ⟨.hbm, 48, rfl⟩
abbrev main_call0_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_4 : Ref sig .tc := ⟨.hbm, 65, rfl⟩
abbrev main_v40 : Ref sig .tc := ⟨.hbm, 66, rfl⟩
abbrev main_v41 : Ref sig .tc := ⟨.hbm, 67, rfl⟩
abbrev main_c_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_cst : Ref sig .tc := ⟨.hbm, 80, rfl⟩
abbrev main_call1_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_7 : Ref sig .tc := ⟨.hbm, 87, rfl⟩
abbrev main_v57 : Ref sig .tc := ⟨.hbm, 88, rfl⟩
abbrev main_v58 : Ref sig .tc := ⟨.hbm, 89, rfl⟩
abbrev main_c_8 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_9 : Ref sig .tc := ⟨.hbm, 96, rfl⟩
abbrev main_v64 : Ref sig .tc := ⟨.hbm, 97, rfl⟩
abbrev main_v65 : Ref sig .tc := ⟨.hbm, 98, rfl⟩
abbrev main_c_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call2_cst : Ref sig .tc := ⟨.hbm, 110, rfl⟩
abbrev main_call2_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_11 : Ref sig .tc := ⟨.hbm, 119, rfl⟩
abbrev main_v83 : Ref sig .tc := ⟨.hbm, 120, rfl⟩
abbrev main_v84 : Ref sig .tc := ⟨.hbm, 121, rfl⟩
abbrev main_cst_12 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_13 : Ref sig .tc := ⟨.hbm, 127, rfl⟩
abbrev main_v89 : Ref sig .tc := ⟨.hbm, 128, rfl⟩
abbrev main_v90 : Ref sig .tc := ⟨.hbm, 129, rfl⟩
abbrev main_c_14 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_15 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call3_cst : Ref sig .tc := ⟨.hbm, 142, rfl⟩
abbrev main_call3_v0 : Ref sig .tc := ⟨.hbm, 143, rfl⟩
abbrev main_v101 : Ref sig .tc := ⟨.hbm, 144, rfl⟩
abbrev main_cst_16 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_17 : Ref sig .tc := ⟨.hbm, 149, rfl⟩
abbrev main_v105 : Ref sig .tc := ⟨.hbm, 150, rfl⟩
abbrev main_cst_18 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_19 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x1_S64x1_0_1 : S1x1.BroadcastsInDim S64x1 (![0, 1] : Fin 2 → Fin S64x1.rank)
  dot_S50000x1_S1x64_S50000x64_1_0_0_1_n_n_wf : DotDims.WF S50000x1 S1x64 S50000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []

variable [Facts₀]

def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KernelValue.lean ====
/-
  What the kernel's one region leaves in the result array, as a function of the arrays the region finds.

  The region has a single grid point, and every window's block at that point is its whole array: the three inputs
  are the pooled features `[64, 64]` (the value of the last host operation before the region), the head's weights
  `[64, 1]` and its bias `[1]`, the output is the result `[64, 1]`. So the block an input window stages IS the array,
  the body's one store covers the output's buffer, and what is written back is the body's stored value of the three
  whole arrays. A block's coordinate is index × size + the coordinate inside the block, and the index is 0 on every
  axis (decided over the one point), so the block's embedding into the array is the identity.
-/
import proofs.«144600_g31181462569269_retrytranche2_1411_2_alg».proof.Proof.Gen.KernelIdeal.Value

noncomputable section

namespace Cert.KernelIdeal.HeadValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Every window's block index at the one grid point is 0 on every axis. -/
theorem index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- The pooled features' block is the whole array. -/
theorem block_pooled (c : Dev nD) (t : Fin cfg0.N) : iblk m c 0 t = V m c main_v119 := by
  obtain ⟨e0, e1, -, -, -, -, -⟩ := index_zero t
  funext j
  show V m c main_v119 (((cfg0.win 0).blk t).view.emb j) = V m c main_v119 j
  refine congrArg (V m c main_v119) (funext fun a => Fin.ext ?_)
  match a with
  | ⟨0, _⟩ => show win0_0.index t (0 : Fin 2) * 64 + 1 * (j 0).val = (j 0).val; omega
  | ⟨1, _⟩ => show win0_0.index t (1 : Fin 2) * 64 + 1 * (j 1).val = (j 1).val; omega

/-- The weights' block is the whole array. -/
theorem block_weights (c : Dev nD) (t : Fin cfg0.N) : iblk m c 1 t = V m c main_arg15 := by
  obtain ⟨-, -, e0, e1, -, -, -⟩ := index_zero t
  funext j
  show V m c main_arg15 (((cfg0.win 1).blk t).view.emb j) = V m c main_arg15 j
  refine congrArg (V m c main_arg15) (funext fun a => Fin.ext ?_)
  match a with
  | ⟨0, _⟩ => show win0_1.index t (0 : Fin 2) * 64 + 1 * (j 0).val = (j 0).val; omega
  | ⟨1, _⟩ => show win0_1.index t (1 : Fin 2) * 1 + 1 * (j 1).val = (j 1).val; omega

/-- The bias' block is the whole array. -/
theorem block_bias (c : Dev nD) (t : Fin cfg0.N) : iblk m c 2 t = V m c main_arg16 := by
  obtain ⟨-, -, -, -, e0, -, -⟩ := index_zero t
  funext j
  show V m c main_arg16 (((cfg0.win 2).blk t).view.emb j) = V m c main_arg16 j
  refine congrArg (V m c main_arg16) (funext fun a => Fin.ext ?_)
  match a with
  | ⟨0, _⟩ => show win0_2.index t (0 : Fin 1) * 1 + 1 * (j 0).val = (j 0).val; omega

/-- The result array as the region leaves it: the body's stored value of the three arrays the region finds. -/
abbrev stored (c : Dev nD) : S64x1.Idx → Elt F .f32 :=
  k0_pay1 (V m c main_v119) (V m c main_arg15) (V m c main_arg16)

/-- What the one point writes back is the (whole) block of that value. -/
theorem flushed_eq (c : Dev nD) (t : Fin cfg0.N) :
    (dats m 0 c).flushed 3 t = ((cfg0.win 3).blk t).view.read (Elt F) (stored m c) := by
  rw [Value.flushed3]
  unfold out0_3
  rw [View.canon_unit_zero zero2]
  simp only [View.ld_unit_zero (S := S64x64) zero2, View.ld_unit_zero (S := S64x1) zero2, View.ld_unit_zero (S := S1) zero1]
  rw [block_pooled, block_weights, block_bias]
  obtain ⟨-, -, -, -, -, e0, e1⟩ := index_zero t
  funext j
  show stored m c j = stored m c (((cfg0.win 3).blk t).view.emb j)
  refine congrArg (stored m c) (funext fun a => Fin.ext ?_)
  match a with
  | ⟨0, _⟩ => show (j 0).val = win0_3.index t (0 : Fin 2) * 64 + 1 * (j 0).val; omega
  | ⟨1, _⟩ => show (j 1).val = win0_3.index t (1 : Fin 2) * 1 + 1 * (j 1).val; omega

/-- An index of the result is in the point's block iff each coordinate is in the block's range on its axis. -/
theorem mem_block (t : Fin cfg0.N) (i : S64x1.Idx) :
    i ∈ ((cfg0.win 3).blk t).view.set ↔ ∀ a : Fin 2, win0_3.index t a * S64x1.size a ≤ (i a).val
      ∧ (i a).val < win0_3.index t a * S64x1.size a + S64x1.size a := by
  show i ∈ ((View.whole main_v120).slice (win0_3.rect t)).set ↔ _
  rw [View.set_slice_whole, Rect.mem_set_unit]
  exact Iff.rfl

/-- The one block covers the result array. -/
theorem covered (i : S64x1.Idx) : ∃ t : Fin cfg0.N, (cfg0.win 3).flush t = true ∧ i ∈ ((cfg0.win 3).blk t).view.set := by
  have t : Fin cfg0.N := ⟨0, by decide⟩
  obtain ⟨-, -, -, -, -, e0, e1⟩ := index_zero t
  refine ⟨t, flush0_3 t, ?_⟩
  rw [mem_block]
  intro a
  match a with
  | ⟨0, _⟩ =>
    show win0_3.index t (0 : Fin 2) * 64 ≤ (i 0).val ∧ (i 0).val < win0_3.index t (0 : Fin 2) * 64 + 64
    have h : (i 0).val < 64 := (i 0).isLt
    omega
  | ⟨1, _⟩ =>
    show win0_3.index t (1 : Fin 2) * 1 ≤ (i 1).val ∧ (i 1).val < win0_3.index t (1 : Fin 2) * 1 + 1
    have h : (i 1).val < 1 := (i 1).isLt
    omega

/-- THE RESULT ARRAY after the run. -/
theorem final (c : Dev nD) : (dats m 0 c).arrAt 3 cfg0.N = stored m c :=
  (dats m 0 c).arrAt_eq_of_cover 3 _ (fun t _ => flushed_eq m c t) covered

/-- The kernel's run: the result array holds the body's stored value of the pooled features, the weights and the
    bias; the arguments are unchanged. -/
theorem run : θ_run defs (onTc (τ := τ) (main (F := F))) ⟨m, fun _ => 0, ρ⟩ fun r => ∀ c : Dev nD,
      r.2.mem ((c : Thread nD τ).loc main_v120)
        = k0_pay1 (V m c main_v119) (m ((c : Thread nD τ).loc main_arg15)) (m ((c : Thread nD τ).loc main_arg16))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨by
      rw [(h c).1, final m c]
      show k0_pay1 (V m c main_v119) (V m c main_arg15) (V m c main_arg16) = _
      rw [V_main_arg15, V_main_arg16], (h c).2⟩)
    (Value.run_blocks m ρ)

end Cert.KernelIdeal.HeadValue

end
-- ==== Proof.LibConcatPair.lean ====
/-
  A concatenation of two arrays with each operand as a plain argument, and the fold of a line of host operations read
  through it.

  `concatenate t ax [⟨A, a⟩, ⟨B, b⟩] h` takes its operands inside a list of (shape, contents) pairs; rewriting does not
  reach the contents there. `concat2 t ax A B a b h` is the same array with `a` and `b` as arguments of their own, so a
  rewrite of an operand's contents goes through. `after_results_pairs` reads what one buffer holds after a literal line
  of host operations (the library's one-pass reading of such a line) with every two-operand concatenation first put in
  that form, so that the operands' own contents are read as well; `concat2` unfolds back by `rfl`.
-/
import Idealize.ShloMosaic.Lib.StableHlo.Run

namespace Cert.ConcatPair

open Idealize.ShloMosaic

variable {α : Type}

/-- The concatenation of two arrays along axis `ax` of the result shape `t`. -/
def concat2 (t : Shape) (ax : Fin t.rank) (A B : Shape) (a : A.Idx → α) (b : B.Idx → α)
    (h : Shape.Concatenates [A, B] t ax) : t.Idx → α :=
  concatenate t ax [⟨A, a⟩, ⟨B, b⟩] h

theorem concat2_intro (t : Shape) (ax : Fin t.rank) (A B : Shape) (a : A.Idx → α) (b : B.Idx → α)
    (h : Shape.Concatenates [A, B] t ax) :
    concatenate t ax [⟨A, a⟩, ⟨B, b⟩] h = concat2 t ax A B a b h := rfl

end Cert.ConcatPair

namespace Idealize.ShloMosaic.StableHlo

/-- What one buffer holds after a literal line of host operations, two-operand concatenations included. -/
macro "after_results_pairs" : tactic =>
  `(tactic| (simp (disch := decide) only [Cert.ConcatPair.concat2_intro, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.ReluStretches.lean ====
/-
  The four rectifiers of the kernel's host program as plain operations.

  `max(x, 0)` is an outlined function of the program, called four times; a call's three operations (the constant 0, its
  broadcast to the operand's shape, the maximum) read and write the call's buffers through typed references, which
  transport contents along "the buffer's type is the value's". Every such equation here holds by computation, so each
  transport is the identity and the three operations are the plain constant, broadcast and maximum on those buffers.
  Reading the host line through these equations leaves no transport in the values read.
-/
import proofs.«144600_g31181462569269_retrytranche2_1411_2_alg».proof.Proof.Gen.KernelIdeal.Launch

set_option maxRecDepth 4096

noncomputable section

namespace Cert.KernelIdeal.Gen

open Idealize.ShloMosaic Idealize.ShloMosaic.TcCoe
open Idealize.SL Idealize.SL.Sem

variable {F : FTy → Type} [FloatOps F]

/-- The rectifier of the first layer's edge hidden rows: constant 0, broadcast, maximum. -/
theorem rectify_edges_1 : (hostOps0_1 : List (HloOp τ sig (Elt F))) =
    [ StableHlo.nullary main_call0_cst (constant S_ .f32 0x00000000#32),
      StableHlo.unary main_call0_cst main_call0_v0 (broadcastInDim S800000x64 ![] bcast_S_S800000x64 : (⟨S_, .f32⟩ : BufTy).Contents (Elt F) → (⟨S800000x64, .f32⟩ : BufTy).Contents (Elt F)),
      StableHlo.binary main_v29 main_call0_v0 main_v30 (maximumf : (⟨S800000x64, .f32⟩ : BufTy).Contents (Elt F) → (⟨S800000x64, .f32⟩ : BufTy).Contents (Elt F) → (⟨S800000x64, .f32⟩ : BufTy).Contents (Elt F)) ] := rfl

/-- The rectifier of the first layer's aggregated node rows: constant 0, broadcast, maximum. -/
theorem rectify_nodes_1 : (hostOps0_3 : List (HloOp τ sig (Elt F))) =
    [ StableHlo.nullary main_call1_cst (constant S_ .f32 0x00000000#32),
      StableHlo.unary main_call1_cst main_call1_v0 (broadcastInDim S50000x64 ![] bcast_S_S50000x64 : (⟨S_, .f32⟩ : BufTy).Contents (Elt F) → (⟨S50000x64, .f32⟩ : BufTy).Contents (Elt F)),
      StableHlo.binary main_v54 main_call1_v0 main_v55 (maximumf : (⟨S50000x64, .f32⟩ : BufTy).Contents (Elt F) → (⟨S50000x64, .f32⟩ : BufTy).Contents (Elt F) → (⟨S50000x64, .f32⟩ : BufTy).Contents (Elt F)) ] := rfl

/-- The rectifier of the second layer's edge hidden rows: constant 0, broadcast, maximum. -/
theorem rectify_edges_2 : (hostOps0_5 : List (HloOp τ sig (Elt F))) =
    [ StableHlo.nullary main_call2_cst (constant S_ .f32 0x00000000#32),
      StableHlo.unary main_call2_cst main_call2_v0 (broadcastInDim S800000x64 ![] bcast_S_S800000x64 : (⟨S_, .f32⟩ : BufTy).Contents (Elt F) → (⟨S800000x64, .f32⟩ : BufTy).Contents (Elt F)),
      StableHlo.binary main_v81 main_call2_v0 main_v82 (maximumf : (⟨S800000x64, .f32⟩ : BufTy).Contents (Elt F) → (⟨S800000x64, .f32⟩ : BufTy).Contents (Elt F) → (⟨S800000x64, .f32⟩ : BufTy).Contents (Elt F)) ] := rfl

/-- The rectifier of the second layer's aggregated node rows: constant 0, broadcast, maximum. -/
theorem rectify_nodes_2 : (hostOps0_7 : List (HloOp τ sig (Elt F))) =
    [ StableHlo.nullary main_call3_cst (constant S_ .f32 0x00000000#32),
      StableHlo.unary main_call3_cst main_call3_v0 (broadcastInDim S50000x64 ![] bcast_S_S50000x64 : (⟨S_, .f32⟩ : BufTy).Contents (Elt F) → (⟨S50000x64, .f32⟩ : BufTy).Contents (Elt F)),
      StableHlo.binary main_v106 main_call3_v0 main_v107 (maximumf : (⟨S50000x64, .f32⟩ : BufTy).Contents (Elt F) → (⟨S50000x64, .f32⟩ : BufTy).Contents (Elt F) → (⟨S50000x64, .f32⟩ : BufTy).Contents (Elt F)) ] := rfl

end Cert.KernelIdeal.Gen

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.LibEdgeRows.lean ====
/-
  A message-passing layer and an edge scorer over the extended reals, one row at a time.

  Every array of the network is a matrix whose row `r` belongs to one node or one edge, and every layer treats
  a row alone:

    * a node's new feature row is `j ↦ max (g j + (∑ k, h k · w[k, j]) + b j) z`, from its aggregated row `g`
      and its own row `h` (`nodeRow`);
    * an edge's score is `(∑ k, max ((∑ j, s j · wa[j, k]) + (∑ j, d j · wb[j, k]) + b₁ k) z · w₂ k) + b₂`, from the
      rows `s`, `d` of its two end nodes (`edgeSplit`), or — the same number — a two-layer perceptron applied to
      the two rows set side by side, with the two weight matrices stacked (`edgeJoined`).

  The one law is that a sum over the `A + B` entries of a joined row is the sum over the first `A` plus the sum
  over the last `B` (`sum_join`); sums of extended reals may be split like that whatever their terms are, so
  nothing is asked of the entries (infinities are welcome).

  `rows1`, `rows2` and `scal2` are the whole arrays whose row `r` (entry `r`) is a function of row `r` of one or
  two operands; an array is one of them as soon as each row is (`eq_rows1` …), and a tile of consecutive rows of
  the operands gives the matching tile of the result (`rows1_tile` …), which is all a row-tiled evaluation needs.
-/
import proofs.«144600_g31181462569269_retrytranche2_1411_2_alg».proof.Proof.LibRowLayers

noncomputable section

namespace Cert.EdgeNet

open Idealize.ShloMosaic Idealize.ShloMosaic.ValueIdx Cert.RowLayers

/-! ## The row functions -/

/-- A row times a weight matrix: `j ↦ ∑ k, h k · w[k, j]`. -/
def project {K J : ℕ} (w : (⟨2, ![K, J]⟩ : Shape).Idx → EReal) (h : Fin K → EReal) : Fin J → EReal :=
  fun j => ∑ k : Fin K, h k * w (ix2 k j)

/-- A node's new row from its aggregated row `g` and its own row `h`. -/
def nodeRow {K J : ℕ} (w : (⟨2, ![K, J]⟩ : Shape).Idx → EReal) (b : Fin J → EReal) (z : EReal)
    (g : Fin J → EReal) (h : Fin K → EReal) : Fin J → EReal :=
  relu z (fun j => g j + project w h j + b j)

/-- An edge's score from the rows of its two end nodes, each through its own weight matrix. -/
def edgeSplit {A B J : ℕ} (wa : (⟨2, ![A, J]⟩ : Shape).Idx → EReal) (wb : (⟨2, ![B, J]⟩ : Shape).Idx → EReal)
    (b₁ : Fin J → EReal) (z : EReal) (w₂ : Fin J → EReal) (b₂ : EReal) (s : Fin A → EReal) (d : Fin B → EReal) : EReal :=
  (∑ k : Fin J, relu z (fun j => project wa s j + project wb d j + b₁ j) k * w₂ k) + b₂

/-- The same score as a two-layer perceptron of the two rows set side by side. -/
def edgeJoined {A B C J : ℕ} (hC : C = A + B) (w : (⟨2, ![C, J]⟩ : Shape).Idx → EReal) (b₁ : Fin J → EReal) (z : EReal)
    (w₂ : (⟨2, ![J, 1]⟩ : Shape).Idx → EReal) (b₂ : Fin 1 → EReal) (s : Fin A → EReal) (d : Fin B → EReal) : Fin 1 → EReal :=
  dense (relu z (dense (join hC s d) w b₁)) w₂ b₂

/-! ## The law -/

/-- A sum over a joined row splits at the seam. -/
theorem sum_join {A B C : ℕ} (hC : C = A + B) (s : Fin A → EReal) (d : Fin B → EReal) (g : Fin C → EReal) :
    (∑ k : Fin C, join hC s d k * g k)
      = (∑ k : Fin A, s k * g ⟨k.val, by have := k.isLt; omega⟩) + ∑ k : Fin B, d k * g ⟨A + k.val, by have := k.isLt; omega⟩ := by
  subst hC
  rw [Fin.sum_univ_add]
  refine congrArg₂ (· + ·) (Finset.sum_congr rfl fun k _ => ?_) (Finset.sum_congr rfl fun k _ => ?_)
  · have hk : (Fin.castAdd B k).val < A := k.isLt
    have e : join rfl s d (Fin.castAdd B k) = s k := by
      unfold join; rw [dif_pos hk]
      exact congrArg s (Fin.ext rfl)
    rw [e]; rfl
  · have hk : ¬ (Fin.natAdd A k).val < A := by show ¬ A + k.val < A; omega
    have e : join rfl s d (Fin.natAdd A k) = d k := by
      unfold join; rw [dif_neg hk]
      exact congrArg d (Fin.ext (by show A + k.val - A = k.val; omega))
    rw [e]; rfl

/-- The perceptron on the joined row is the split score, when `wa` holds the first `A` rows of `w`, `wb` the
    next `B`, and `w₂v` is the one column of `w₂`. -/
theorem edgeJoined_eq_split {A B C J : ℕ} (hC : C = A + B) (w : (⟨2, ![C, J]⟩ : Shape).Idx → EReal)
    (wa : (⟨2, ![A, J]⟩ : Shape).Idx → EReal) (wb : (⟨2, ![B, J]⟩ : Shape).Idx → EReal)
    (hwa : ∀ (k : Fin A) (j : Fin J), wa (ix2 k j) = w (ix2 ⟨k.val, by have := k.isLt; omega⟩ j))
    (hwb : ∀ (k : Fin B) (j : Fin J), wb (ix2 k j) = w (ix2 ⟨A + k.val, by have := k.isLt; omega⟩ j))
    (b₁ : Fin J → EReal) (z : EReal) (w₂ : (⟨2, ![J, 1]⟩ : Shape).Idx → EReal) (b₂ : Fin 1 → EReal)
    (w₂v : Fin J → EReal) (hw₂ : ∀ k, w₂v k = w₂ (ix2 k 0)) (s : Fin A → EReal) (d : Fin B → EReal) (u : Fin 1) :
    edgeJoined hC w b₁ z w₂ b₂ s d u = edgeSplit wa wb b₁ z w₂v (b₂ u) s d := by
  obtain rfl : u = 0 := Subsingleton.elim _ _
  unfold edgeJoined edgeSplit dense
  refine congrArg (· + b₂ 0) (Finset.sum_congr rfl fun k _ => ?_)
  rw [hw₂ k]
  refine congrArg (fun t => max t z * w₂ (ix2 k 0)) ?_
  show (∑ j : Fin C, join hC s d j * w (ix2 j k)) + b₁ k = project wa s k + project wb d k + b₁ k
  rw [sum_join hC s d (fun j => w (ix2 j k))]
  unfold project
  simp only [hwa, hwb]

/-! ## Whole arrays, row by row -/

/-- The `[a, J]` array whose row `r` is `f` of row `r` of `A`. -/
def rows1 {a K J : ℕ} (f : (Fin K → EReal) → Fin J → EReal) (A : (⟨2, ![a, K]⟩ : Shape).Idx → EReal) :
    (⟨2, ![a, J]⟩ : Shape).Idx → EReal :=
  fun i => f (rowOf A (i 0)) (i 1)

/-- The `[a, J]` array whose row `r` is `f` of rows `r` of `A` and of `B`. -/
def rows2 {a K L J : ℕ} (f : (Fin K → EReal) → (Fin L → EReal) → Fin J → EReal)
    (A : (⟨2, ![a, K]⟩ : Shape).Idx → EReal) (B : (⟨2, ![a, L]⟩ : Shape).Idx → EReal) : (⟨2, ![a, J]⟩ : Shape).Idx → EReal :=
  fun i => f (rowOf A (i 0)) (rowOf B (i 0)) (i 1)

/-- The `[a]` vector whose entry `r` is `f` of rows `r` of `A` and of `B`. -/
def scal2 {a K L : ℕ} (f : (Fin K → EReal) → (Fin L → EReal) → EReal)
    (A : (⟨2, ![a, K]⟩ : Shape).Idx → EReal) (B : (⟨2, ![a, L]⟩ : Shape).Idx → EReal) : (⟨1, ![a]⟩ : Shape).Idx → EReal :=
  fun i => f (rowOf A (i 0)) (rowOf B (i 0))

theorem eq_rows1 {a K J : ℕ} (f : (Fin K → EReal) → Fin J → EReal) (A : (⟨2, ![a, K]⟩ : Shape).Idx → EReal)
    (X : (⟨2, ![a, J]⟩ : Shape).Idx → EReal) (h : ∀ p : Fin a, rowOf X p = f (rowOf A p)) : X = rows1 f A :=
  funext fun i => (apply_eq_rowOf X i).trans (congrFun (h (i 0)) (i 1))

theorem eq_rows2 {a K L J : ℕ} (f : (Fin K → EReal) → (Fin L → EReal) → Fin J → EReal)
    (A : (⟨2, ![a, K]⟩ : Shape).Idx → EReal) (B : (⟨2, ![a, L]⟩ : Shape).Idx → EReal)
    (X : (⟨2, ![a, J]⟩ : Shape).Idx → EReal) (h : ∀ p : Fin a, rowOf X p = f (rowOf A p) (rowOf B p)) : X = rows2 f A B :=
  funext fun i => (apply_eq_rowOf X i).trans (congrFun (h (i 0)) (i 1))

theorem eq_scal2 {a K L : ℕ} (f : (Fin K → EReal) → (Fin L → EReal) → EReal)
    (A : (⟨2, ![a, K]⟩ : Shape).Idx → EReal) (B : (⟨2, ![a, L]⟩ : Shape).Idx → EReal)
    (X : (⟨1, ![a]⟩ : Shape).Idx → EReal) (h : ∀ p : Fin a, X (ix1 p) = f (rowOf A p) (rowOf B p)) : X = scal2 f A B :=
  funext fun i => (congrArg X (eq_ix1 i)).trans (h (i 0))

/-! ## A tile of rows -/

/-- `A₀` holds the rows of `A` from row `r₀` on. -/
def TileOf {a₀ a K : ℕ} (r₀ : ℕ) (A₀ : (⟨2, ![a₀, K]⟩ : Shape).Idx → EReal) (A : (⟨2, ![a, K]⟩ : Shape).Idx → EReal) : Prop :=
  ∀ (y : (⟨2, ![a₀, K]⟩ : Shape).Idx) (x : (⟨2, ![a, K]⟩ : Shape).Idx),
    (x 0).val = r₀ + (y 0).val → (x 1).val = (y 1).val → A₀ y = A x

theorem TileOf.row {a₀ a K : ℕ} {r₀ : ℕ} {A₀ : (⟨2, ![a₀, K]⟩ : Shape).Idx → EReal} {A : (⟨2, ![a, K]⟩ : Shape).Idx → EReal}
    (h : TileOf r₀ A₀ A) (p : Fin a₀) (r : Fin a) (hr : r.val = r₀ + p.val) : rowOf A₀ p = rowOf A r :=
  funext fun k => h (ix2 p k) (ix2 r k) hr rfl

theorem rows1_tile {a₀ a K J : ℕ} (f : (Fin K → EReal) → Fin J → EReal) {r₀ : ℕ}
    {A₀ : (⟨2, ![a₀, K]⟩ : Shape).Idx → EReal} {A : (⟨2, ![a, K]⟩ : Shape).Idx → EReal} (hA : TileOf r₀ A₀ A)
    (j : (⟨2, ![a₀, J]⟩ : Shape).Idx) (i : (⟨2, ![a, J]⟩ : Shape).Idx)
    (hi0 : (i 0).val = r₀ + (j 0).val) (hi1 : (i 1).val = (j 1).val) : rows1 f A₀ j = rows1 f A i := by
  have hcol : (j 1 : Fin J) = i 1 := Fin.ext hi1.symm
  show f (rowOf A₀ (j 0)) (j 1) = f (rowOf A (i 0)) (i 1)
  rw [hA.row (j 0) (i 0) hi0, hcol]

theorem rows2_tile {a₀ a K L J : ℕ} (f : (Fin K → EReal) → (Fin L → EReal) → Fin J → EReal) {r₀ : ℕ}
    {A₀ : (⟨2, ![a₀, K]⟩ : Shape).Idx → EReal} {A : (⟨2, ![a, K]⟩ : Shape).Idx → EReal} (hA : TileOf r₀ A₀ A)
    {B₀ : (⟨2, ![a₀, L]⟩ : Shape).Idx → EReal} {B : (⟨2, ![a, L]⟩ : Shape).Idx → EReal} (hB : TileOf r₀ B₀ B)
    (j : (⟨2, ![a₀, J]⟩ : Shape).Idx) (i : (⟨2, ![a, J]⟩ : Shape).Idx)
    (hi0 : (i 0).val = r₀ + (j 0).val) (hi1 : (i 1).val = (j 1).val) : rows2 f A₀ B₀ j = rows2 f A B i := by
  have hcol : (j 1 : Fin J) = i 1 := Fin.ext hi1.symm
  show f (rowOf A₀ (j 0)) (rowOf B₀ (j 0)) (j 1) = f (rowOf A (i 0)) (rowOf B (i 0)) (i 1)
  rw [hA.row (j 0) (i 0) hi0, hB.row (j 0) (i 0) hi0, hcol]

theorem scal2_tile {a₀ a K L : ℕ} (f : (Fin K → EReal) → (Fin L → EReal) → EReal) {r₀ : ℕ}
    {A₀ : (⟨2, ![a₀, K]⟩ : Shape).Idx → EReal} {A : (⟨2, ![a, K]⟩ : Shape).Idx → EReal} (hA : TileOf r₀ A₀ A)
    {B₀ : (⟨2, ![a₀, L]⟩ : Shape).Idx → EReal} {B : (⟨2, ![a, L]⟩ : Shape).Idx → EReal} (hB : TileOf r₀ B₀ B)
    (j : (⟨1, ![a₀]⟩ : Shape).Idx) (i : (⟨1, ![a]⟩ : Shape).Idx)
    (hi0 : (i 0).val = r₀ + (j 0).val) : scal2 f A₀ B₀ j = scal2 f A B i := by
  show f (rowOf A₀ (j 0)) (rowOf B₀ (j 0)) = f (rowOf A (i 0)) (rowOf B (i 0))
  rw [hA.row (j 0) (i 0) hi0, hB.row (j 0) (i 0) hi0]

end Cert.EdgeNet

end
-- ==== Proof.LibSplitHidden.lean ====
/-
  An edge's hidden row from the feature rows of its two end nodes, in two arrangements, over the extended reals.

  Let `x` be a table of node rows, `[N, K]`, and `W` a weight matrix `[K + K, J]` whose first `K` rows act on the
  row of an edge's source node and whose last `K` rows act on the row of its target node, with a bias `b`.

    * Arrangement "project, then gather": every NODE row is sent through each half of `W` once,
      `P = x · W[:K] + b` and `Q = x · W[K:]`, and edge `e` reads `P[src e] + Q[dst e]`.
    * Arrangement "gather, then project": edge `e` sets its two node rows side by side, `x[src e] ‖ x[dst e]`, a row of
      `K + K` entries, and sends it through all of `W`: `(x[src e] ‖ x[dst e]) · W + b`.

  Entry `(e, q)` of the first is `((∑ k, s k · W[k, q]) + b q) + ∑ k, d k · W[K + k, q]` and of the second
  `((∑ k, s k · W[k, q]) + ∑ k, d k · W[K + k, q]) + b q`, with `s`, `d` the two node rows: a sum over the joined row
  splits at the seam, and the three summands are added in another order. Sums of extended reals may be split and
  reordered whatever their terms are, so nothing is asked of the entries (infinities are welcome). The row numbers
  are read the same way in both arrangements (signed, clamped into the table), because every table has `N` rows.

  The second part reads one affine layer `p · w + b` with a bias vector `[n]` in the device's spelling (a product into a
  zero accumulator, the bias viewed `[1, n]` and broadcast down the rows) and in the host's (a product, the bias given a
  unit leading axis and broadcast) as one array.
-/
import proofs.«144600_g31181462569269_retrytranche2_1411_2_alg».proof.Proof.LibRowLayers
import proofs.«144600_g31181462569269_retrytranche2_1411_2_alg».proof.Proof.LibRowGatherScatter
import proofs.«144600_g31181462569269_retrytranche2_1411_2_alg».proof.Proof.LibEdgeRows

noncomputable section

namespace Cert.SplitHidden

open Idealize.ShloMosaic Idealize.ShloMosaic.ValueIdx Idealize.ShloMosaic.RowOps Cert.RowLayers Cert.EdgeNet

/-! ## The law on one pair of rows -/

/-- A dense layer on two rows set side by side is the dense layer of the first row through the upper half of the
    weights plus the second row through the lower half: the joined sum splits at the seam, and the bias moves past
    the second sum. -/
theorem dense_join_split {K C J : ℕ} (hC : C = K + K) (s d : Fin K → EReal)
    (w : (⟨2, ![C, J]⟩ : Shape).Idx → EReal) (wa wb : (⟨2, ![K, J]⟩ : Shape).Idx → EReal)
    (hwa : ∀ (k : Fin K) (j : Fin J), wa (ix2 k j) = w (ix2 ⟨k.val, by have := k.isLt; omega⟩ j))
    (hwb : ∀ (k : Fin K) (j : Fin J), wb (ix2 k j) = w (ix2 ⟨K + k.val, by have := k.isLt; omega⟩ j))
    (b : Fin J → EReal) (q : Fin J) :
    dense (join hC s d) w b q = dense s wa b q + project wb d q := by
  unfold dense project
  rw [sum_join hC s d (fun k => w (ix2 k q))]
  simp only [hwa, hwb]
  exact add_right_comm _ _ _

/-! ## The two arrangements as whole arrays -/

/-- "Project every node row through each half of the weights, then gather at the edges' end nodes and add" is
    "gather the end nodes' rows, set them side by side, and project through the whole matrix", entry by entry, for
    any numbers of nodes, edges, features and outputs and any row numbers. -/
theorem gathered_halves_eq_joined {N E K C J w : ℕ} (hN : 0 < N) (hC : C = K + K)
    {dN : DotDims ⟨2, ![N, K]⟩ ⟨2, ![K, J]⟩ ⟨2, ![N, J]⟩} (HN : RowsTimesCols dN)
    {dE : DotDims ⟨2, ![E, C]⟩ ⟨2, ![C, J]⟩ ⟨2, ![E, J]⟩} (HE : RowsTimesCols dE)
    (precN precE : Option ContractPrecision)
    (wfJ : GatherDims.WF ⟨2, ![N, J]⟩ ⟨2, ![E, 1]⟩ ⟨2, ![E, J]⟩ [1] [0] [] [0] [] 1 ![1, J])
    (wfK : GatherDims.WF ⟨2, ![N, K]⟩ ⟨2, ![E, 1]⟩ ⟨2, ![E, K]⟩ [1] [0] [] [0] [] 1 ![1, K])
    (x : FVec Ideal ⟨2, ![N, K]⟩ .f32) (W : FVec Ideal ⟨2, ![C, J]⟩ .f32) (b : FVec Ideal ⟨1, ![J]⟩ .f32)
    (si di : IVec ⟨2, ![E, 1]⟩ w)
    (hs0 : (⟨2, ![C, J]⟩ : Shape).Slices ![0, 0] ⟨2, ![K, J]⟩) (hs1 : (⟨2, ![C, J]⟩ : Shape).Slices ![K, 0] ⟨2, ![K, J]⟩)
    (hb1 : (⟨1, ![J]⟩ : Shape).BroadcastsInDim ⟨2, ![1, J]⟩ ![1])
    (hbN : (⟨2, ![1, J]⟩ : Shape).BroadcastsInDim ⟨2, ![N, J]⟩ ![0, 1])
    (hb1' : (⟨1, ![J]⟩ : Shape).BroadcastsInDim ⟨2, ![1, J]⟩ ![1])
    (hbE : (⟨2, ![1, J]⟩ : Shape).BroadcastsInDim ⟨2, ![E, J]⟩ ![0, 1])
    (hcat : Shape.Concatenates [(⟨2, ![E, K]⟩ : Shape), ⟨2, ![E, K]⟩] ⟨2, ![E, C]⟩ 1) :
    addf (Host.gather (rowGatherDims N E J wfJ)
            (addf (Host.dotGeneral (F := Ideal) dN precN x (extractStridedSlice ⟨2, ![K, J]⟩ ![0, 0] W hs0))
              (broadcastInDim ⟨2, ![N, J]⟩ ![0, 1] hbN (broadcastInDim ⟨2, ![1, J]⟩ ![1] hb1 b))) si)
         (Host.gather (rowGatherDims N E J wfJ)
            (Host.dotGeneral (F := Ideal) dN precN x (extractStridedSlice ⟨2, ![K, J]⟩ ![K, 0] W hs1)) di)
      = addf (Host.dotGeneral (F := Ideal) dE precE
                (concatenate ⟨2, ![E, C]⟩ 1 [⟨⟨2, ![E, K]⟩, Host.gather (rowGatherDims N E K wfK) x si⟩,
                  ⟨⟨2, ![E, K]⟩, Host.gather (rowGatherDims N E K wfK) x di⟩] hcat) W)
             (broadcastInDim ⟨2, ![E, J]⟩ ![0, 1] hbE (broadcastInDim ⟨2, ![1, J]⟩ ![1] hb1' b)) := by
  funext i
  obtain ⟨e, q, rfl⟩ : ∃ (e : Fin E) (q : Fin J), i = ix2 e q := ⟨i 0, i 1, eq_ix2 i⟩
  -- the halves of the weights, read in the whole matrix
  have hwa : ∀ (k : Fin K) (j : Fin J), extractStridedSlice ⟨2, ![K, J]⟩ ![0, 0] W hs0 (ix2 k j)
      = W (ix2 ⟨k.val, by have := k.isLt; omega⟩ j) :=
    fun k j => slice2_axis0_apply 0 W hs0 k j ⟨k.val, by have := k.isLt; omega⟩ (Nat.zero_add _).symm
  have hwb : ∀ (k : Fin K) (j : Fin J), extractStridedSlice ⟨2, ![K, J]⟩ ![K, 0] W hs1 (ix2 k j)
      = W (ix2 ⟨K + k.val, by have := k.isLt; omega⟩ j) :=
    fun k j => slice2_axis0_apply K W hs1 k j ⟨K + k.val, by have := k.isLt; omega⟩ rfl
  -- the gathered rows are the end nodes' rows
  have hgs : rowOf (Host.gather (rowGatherDims N E K wfK) x si) e = rowOf x (gatherRow hN si e) :=
    funext fun k => gather_rows_apply hN wfK x si e k
  have hgd : rowOf (Host.gather (rowGatherDims N E K wfK) x di) e = rowOf x (gatherRow hN di e) :=
    funext fun k => gather_rows_apply hN wfK x di e k
  -- the left side at (e, q)
  have hL : addf (Host.gather (rowGatherDims N E J wfJ)
            (addf (Host.dotGeneral (F := Ideal) dN precN x (extractStridedSlice ⟨2, ![K, J]⟩ ![0, 0] W hs0))
              (broadcastInDim ⟨2, ![N, J]⟩ ![0, 1] hbN (broadcastInDim ⟨2, ![1, J]⟩ ![1] hb1 b))) si)
         (Host.gather (rowGatherDims N E J wfJ)
            (Host.dotGeneral (F := Ideal) dN precN x (extractStridedSlice ⟨2, ![K, J]⟩ ![K, 0] W hs1)) di) (ix2 e q)
      = dense (rowOf x (gatherRow hN si e)) (extractStridedSlice ⟨2, ![K, J]⟩ ![0, 0] W hs0) (fun j => b (ix1 j)) q
        + project (extractStridedSlice ⟨2, ![K, J]⟩ ![K, 0] W hs1) (rowOf x (gatherRow hN di e)) q := by
    refine (congrArg₂ (fun u v : EReal => u + v) (gather_rows_apply hN wfJ _ si e q) (gather_rows_apply hN wfJ _ di e q)).trans ?_
    exact congrArg₂ (fun u v : EReal => u + v)
      (congrFun (rowOf_dense_host HN precN x _ b hb1 hbN (gatherRow hN si e)) q)
      (congrFun (rowOf_dotGeneral HN precN x _ (gatherRow hN di e)) q)
  -- the right side at (e, q)
  have hR : addf (Host.dotGeneral (F := Ideal) dE precE
                (concatenate ⟨2, ![E, C]⟩ 1 [⟨⟨2, ![E, K]⟩, Host.gather (rowGatherDims N E K wfK) x si⟩,
                  ⟨⟨2, ![E, K]⟩, Host.gather (rowGatherDims N E K wfK) x di⟩] hcat) W)
             (broadcastInDim ⟨2, ![E, J]⟩ ![0, 1] hbE (broadcastInDim ⟨2, ![1, J]⟩ ![1] hb1' b)) (ix2 e q)
      = dense (join hC (rowOf x (gatherRow hN si e)) (rowOf x (gatherRow hN di e))) W (fun j => b (ix1 j)) q := by
    refine (congrFun (rowOf_dense_host HE precE _ W b hb1' hbE e) q).trans ?_
    rw [rowOf_concat_cols _ _ hcat hC e, hgs, hgd]
  rw [hL, hR]
  exact (dense_join_split hC _ _ W _ _ hwa hwb _ q).symm

/-! ## One affine layer with a bias vector, in the device's spelling and the host's -/

/-- `p · w + b` with `b` a vector `[n]`: the device's product into a zero accumulator plus the bias viewed `[1, n]` and
    broadcast down the rows (the left operand passed through an identity cast) is the host's product plus the bias
    given a unit leading axis and broadcast. -/
theorem affine_device_eq_host {a K n : ℕ}
    {dD : DotDims ⟨2, ![a, K]⟩ ⟨2, ![K, n]⟩ ⟨2, ![a, n]⟩} (HD : RowsTimesCols dD)
    {dH : DotDims ⟨2, ![a, K]⟩ ⟨2, ![K, n]⟩ ⟨2, ![a, n]⟩} (HH : RowsTimesCols dH)
    (precD precH : Option ContractPrecision)
    (p : FVec Ideal ⟨2, ![a, K]⟩ .f32) (wt : FVec Ideal ⟨2, ![K, n]⟩ .f32) (b : FVec Ideal ⟨1, ![n]⟩ .f32)
    (hcP : (⟨2, ![a, K]⟩ : Shape).ShapeCasts ⟨2, ![a, K]⟩) (hcB : (⟨1, ![n]⟩ : Shape).ShapeCasts ⟨2, ![1, n]⟩)
    (hB : (⟨2, ![1, n]⟩ : Shape).Broadcasts ⟨2, ![a, n]⟩)
    (h1 : (⟨1, ![n]⟩ : Shape).BroadcastsInDim ⟨2, ![1, n]⟩ ![1]) (h2 : (⟨2, ![1, n]⟩ : Shape).BroadcastsInDim ⟨2, ![a, n]⟩ ![0, 1]) :
    addf (matmul dD precD (shapeCast ⟨2, ![a, K]⟩ p hcP) wt (constant (F := Ideal) ⟨2, ![a, n]⟩ .f32 0x00000000#32))
         (broadcastTo ⟨2, ![a, n]⟩ (shapeCast ⟨2, ![1, n]⟩ b hcB) hB)
      = addf (Host.dotGeneral (F := Ideal) dH precH p wt)
          (broadcastInDim ⟨2, ![a, n]⟩ ![0, 1] h2 (broadcastInDim ⟨2, ![1, n]⟩ ![1] h1 b)) := by
  rw [shapeCast_self p hcP]
  funext i
  obtain ⟨r, q, rfl⟩ : ∃ (r : Fin a) (q : Fin n), i = ix2 r q := ⟨i 0, i 1, eq_ix2 i⟩
  have hrow : rowOf (shapeCast ⟨2, ![1, n]⟩ b hcB) 0 = fun j => b (ix1 j) :=
    funext fun j => shapeCast_a_1a_apply b hcB 0 j
  refine (congrFun (rowOf_dense_device HD precD p wt (shapeCast ⟨2, ![1, n]⟩ b hcB) hB r) q).trans ?_
  rw [hrow]
  exact (congrFun (rowOf_dense_host HH precH p wt b h1 h2 r) q).symm

end Cert.SplitHidden

end
-- ==== Proof.HiddenStage.lean ====
/-
  The two places where the kernel's program and the reference differ, as equations between whole arrays.

  1. The hidden row of an edge, before the rectifier. With `x` the node rows `[50000, 64]`, `W` the weights `[128, 64]`,
     `b` the bias `[64]` and `si`, `di` the columns `[800000, 1]` of source and target row numbers, the kernel's program
     computes `(x · W[0:64] + b)[si] + (x · W[64:128])[di]` and the reference `(x[si] ‖ x[di]) · W + b`. Entry by entry
     these are one extended real: the joined sum splits at the seam and the bias moves past the second sum.
  2. The head. The kernel body's `p · w + b` (a product into a zero accumulator, the bias `[1]` viewed `[1, 1]` and
     broadcast down the 64 rows) is the reference's `p · w + b` (a host product, the bias broadcast).

  Both are stated for arbitrary operands, over the two printed programs' own dimension records, so that they rewrite
  the kernel's spelling into the reference's wherever it occurs.
-/
import proofs.«144600_g31181462569269_retrytranche2_1411_2_alg».proof.KernelIdeal
import proofs.«144600_g31181462569269_retrytranche2_1411_2_alg».proof.ReferenceIdeal
import proofs.«144600_g31181462569269_retrytranche2_1411_2_alg».proof.Proof.Gen.KernelIdeal.Skeleton
import proofs.«144600_g31181462569269_retrytranche2_1411_2_alg».proof.Proof.LibSplitHidden

noncomputable section

namespace Cert.Bridge

open Idealize.ShloMosaic Idealize.ShloMosaic.ValueIdx Idealize.ShloMosaic.RowOps Cert.RowLayers Cert.SplitHidden

variable [Cert.KernelIdeal.Facts] [Cert.ReferenceIdeal.Facts]

/-! ## The printed dimension numbers are "rows times columns" -/

theorem rtc_node : RowsTimesCols Cert.KernelIdeal.dot_S50000x64_S64x64_S50000x64_1_0_0_1_n_n :=
  ⟨rfl, rfl, fun _ _ => rfl, fun _ _ => rfl, fun _ _ => rfl, fun _ _ => rfl⟩

theorem rtc_edge : RowsTimesCols Cert.ReferenceIdeal.dot_S800000x128_S128x64_S800000x64_1_0_0_1_n_n :=
  ⟨rfl, rfl, fun _ _ => rfl, fun _ _ => rfl, fun _ _ => rfl, fun _ _ => rfl⟩

theorem rtc_head_device : RowsTimesCols Cert.KernelIdeal.dot_S64x64_S64x1_S64x1_1_0_0_1_n_n :=
  ⟨rfl, rfl, fun _ _ => rfl, fun _ _ => rfl, fun _ _ => rfl, fun _ _ => rfl⟩

theorem rtc_head_host : RowsTimesCols Cert.ReferenceIdeal.dot_S64x64_S64x1_S64x1_1_0_0_1_n_n :=
  ⟨rfl, rfl, fun _ _ => rfl, fun _ _ => rfl, fun _ _ => rfl, fun _ _ => rfl⟩

/-! ## An edge's hidden row -/

/-- `(x · W[0:64] + b)[si] + (x · W[64:128])[di] = (x[si] ‖ x[di]) · W + b`, for any node rows, weights, bias and row
    numbers. -/
theorem hidden_eq
    (hb1' : Cert.ReferenceIdeal.S64.BroadcastsInDim Cert.ReferenceIdeal.S1x64 ![1])
    (hbE : Cert.ReferenceIdeal.S1x64.BroadcastsInDim Cert.ReferenceIdeal.S800000x64 ![0, 1])
    (hcat : Shape.Concatenates [Cert.ReferenceIdeal.S800000x64, Cert.ReferenceIdeal.S800000x64] Cert.ReferenceIdeal.S800000x128 1)
    (x : FVec Ideal Cert.KernelIdeal.S50000x64 .f32) (W : FVec Ideal Cert.KernelIdeal.S128x64 .f32)
    (b : FVec Ideal Cert.KernelIdeal.S64 .f32) (si di : IVec Cert.KernelIdeal.S800000x1 32)
    (hs0 : Cert.KernelIdeal.S128x64.Slices ![0, 0] Cert.KernelIdeal.S64x64)
    (hs1 : Cert.KernelIdeal.S128x64.Slices ![64, 0] Cert.KernelIdeal.S64x64)
    (hb1 : Cert.KernelIdeal.S64.BroadcastsInDim Cert.KernelIdeal.S1x64 ![1])
    (hbN : Cert.KernelIdeal.S1x64.BroadcastsInDim Cert.KernelIdeal.S50000x64 ![0, 1]) :
    addf (Host.gather Cert.KernelIdeal.gather_S50000x64_S800000x1_S800000x64_1_0_n_n_0_1_164
            (addf (Host.dotGeneral (F := Ideal) Cert.KernelIdeal.dot_S50000x64_S64x64_S50000x64_1_0_0_1_n_n none x
                    (extractStridedSlice Cert.KernelIdeal.S64x64 ![0, 0] W hs0))
              (broadcastInDim Cert.KernelIdeal.S50000x64 ![0, 1] hbN (broadcastInDim Cert.KernelIdeal.S1x64 ![1] hb1 b))) si)
         (Host.gather Cert.KernelIdeal.gather_S50000x64_S800000x1_S800000x64_1_0_n_n_0_1_164
            (Host.dotGeneral (F := Ideal) Cert.KernelIdeal.dot_S50000x64_S64x64_S50000x64_1_0_0_1_n_n none x
              (extractStridedSlice Cert.KernelIdeal.S64x64 ![64, 0] W hs1)) di)
      = addf (Host.dotGeneral (F := Ideal) Cert.ReferenceIdeal.dot_S800000x128_S128x64_S800000x64_1_0_0_1_n_n none
                (concatenate Cert.ReferenceIdeal.S800000x128 1
                  [⟨Cert.ReferenceIdeal.S800000x64, Host.gather Cert.ReferenceIdeal.gather_S50000x64_S800000x1_S800000x64_1_0_n_n_0_1_164 x si⟩,
                   ⟨Cert.ReferenceIdeal.S800000x64, Host.gather Cert.ReferenceIdeal.gather_S50000x64_S800000x1_S800000x64_1_0_n_n_0_1_164 x di⟩] hcat) W)
             (broadcastInDim Cert.ReferenceIdeal.S800000x64 ![0, 1] hbE (broadcastInDim Cert.ReferenceIdeal.S1x64 ![1] hb1' b)) :=
  gathered_halves_eq_joined (N := 50000) (E := 800000) (K := 64) (C := 128) (J := 64) (by decide) rfl rtc_node rtc_edge none none
    Cert.KernelIdeal.gather_S50000x64_S800000x1_S800000x64_1_0_n_n_0_1_164.wf
    Cert.ReferenceIdeal.gather_S50000x64_S800000x1_S800000x64_1_0_n_n_0_1_164.wf
    x W b si di hs0 hs1 hb1 hbN hb1' hbE hcat

/-! ## The head -/

/-- The kernel body's stored value — `p · w` into a zero accumulator plus the bias `[1]` viewed `[1, 1]` and broadcast
    down the rows — is the reference's `p · w + b`. -/
theorem head_eq
    (h1 : Cert.ReferenceIdeal.S1.BroadcastsInDim Cert.ReferenceIdeal.S1x1 ![1])
    (h2 : Cert.ReferenceIdeal.S1x1.BroadcastsInDim Cert.ReferenceIdeal.S64x1 ![0, 1])
    (p : FVec Ideal Cert.KernelIdeal.S64x64 .f32) (wt : FVec Ideal Cert.KernelIdeal.S64x1 .f32)
    (b : FVec Ideal Cert.KernelIdeal.S1 .f32) :
    Cert.KernelIdeal.Gen.k0_pay1 (F := Ideal) p wt b
      = addf (Host.dotGeneral (F := Ideal) Cert.ReferenceIdeal.dot_S64x64_S64x1_S64x1_1_0_0_1_n_n none p wt)
          (broadcastInDim Cert.ReferenceIdeal.S64x1 ![0, 1] h2 (broadcastInDim Cert.ReferenceIdeal.S1x1 ![1] h1 b)) :=
  affine_device_eq_host (a := 64) (K := 64) (n := 1) rtc_head_device rtc_head_host none none p wt b _ _ _ h1 h2

end Cert.Bridge

end
-- ==== Proof.Bridge.lean ====
/-
  The kernel's result array is the reference's, for memories that agree on the seventeen arguments.

  Both programs run the same two message-passing layers and the same mean pooling on the host; the kernel's program
  then applies the head inside its one region, the reference on the host. Reading the kernel's host operations in order
  gives the pooled features as a term of the arguments; in it the hidden row of an edge is spelled "project each node
  row through each half of the weights, gather, add" at both layers, where the reference spells it "gather the two node
  rows, set them side by side, project". Rewriting the first spelling into the second (`hidden_eq`, once per layer)
  and the head's device spelling into the host's (`head_eq`) leaves the reference's term, operation for operation:
  every other operation — the edge weight `1 / (1 + exp (−(h · w₂ + b₂)))`, the message, the scatter-add at the targets, the
  rectifiers, the pooling quotient — is the same operation of the same operands in both programs and is never opened.
-/
import proofs.«144600_g31181462569269_retrytranche2_1411_2_alg».proof.Proof.Gen.KernelIdeal.Frame
import proofs.«144600_g31181462569269_retrytranche2_1411_2_alg».proof.Proof.ReluStretches
import proofs.«144600_g31181462569269_retrytranche2_1411_2_alg».proof.Proof.ReferenceRun
import proofs.«144600_g31181462569269_retrytranche2_1411_2_alg».proof.Proof.HiddenStage

set_option maxRecDepth 16384

noncomputable section

namespace Cert.Bridge

open Idealize.ShloMosaic Idealize.ShloMosaic.TcCoe Idealize.SL.Sem Idealize.ShloMosaic.StableHlo

variable [Cert.KernelIdeal.Facts] [Cert.ReferenceIdeal.Facts]

/-! ## The two programs' dimension records of the shared operations are the same records -/

theorem rec0 : Cert.KernelIdeal.dot_S50000x1_S1x64_S50000x64_1_0_0_1_n_n = Cert.ReferenceIdeal.dot_S50000x1_S1x64_S50000x64_1_0_0_1_n_n := rfl
theorem rec1 : Cert.KernelIdeal.dot_S50000x64_S64x64_S50000x64_1_0_0_1_n_n = Cert.ReferenceIdeal.dot_S50000x64_S64x64_S50000x64_1_0_0_1_n_n := rfl
theorem rec2 : Cert.KernelIdeal.dot_S800000x64_S64x1_S800000x1_1_0_0_1_n_n = Cert.ReferenceIdeal.dot_S800000x64_S64x1_S800000x1_1_0_0_1_n_n := rfl
theorem rec3 : Cert.KernelIdeal.gather_S50000x64_S800000x1_S800000x64_1_0_n_n_0_1_164 = Cert.ReferenceIdeal.gather_S50000x64_S800000x1_S800000x64_1_0_n_n_0_1_164 := rfl
theorem rec4 : Cert.KernelIdeal.scatter_S50000x64_S800000x1_S800000x64_1_0_0_1 = Cert.ReferenceIdeal.scatter_S50000x64_S800000x1_S800000x64_1_0_0_1 := rfl
theorem rec5 : Cert.KernelIdeal.scatter_S64x64_S50000x1_S50000x64_1_0_0_1 = Cert.ReferenceIdeal.scatter_S64x64_S50000x1_S50000x64_1_0_0_1 := rfl
theorem rec6 : Cert.KernelIdeal.scatter_S64_S50000x1_S50000_n_0_0_1 = Cert.ReferenceIdeal.scatter_S64_S50000x1_S50000_n_0_0_1 := rfl

/-! ## The result -/

set_option maxHeartbeats 4000000 in
/-- The body's stored value of the pooled features the region finds, the head's weights and its bias is the term the
    reference's run ends at. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.KernelIdeal.Gen.k0_pay1 (F := Ideal) (Cert.KernelIdeal.Gen.V m c Cert.KernelIdeal.main_v119) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
      = Cert.ReferenceIdeal.ValueP.res_main_v117 m' c := by
  obtain ⟨h0, h1, h2, h3, h4, h5, h6, h7, h8, h9, h10, h11, h12, h13, h14, h15, h16⟩ := hagree
  have e0 : m' ((c.tc : Thread Cert.ReferenceIdeal.nD Cert.ReferenceIdeal.τ).loc Cert.ReferenceIdeal.main_arg0) = m (c, Proc.devRef .tc Cert.KernelIdeal.main_arg0) := h0
  have e1 : m' ((c.tc : Thread Cert.ReferenceIdeal.nD Cert.ReferenceIdeal.τ).loc Cert.ReferenceIdeal.main_arg1) = m (c, Proc.devRef .tc Cert.KernelIdeal.main_arg1) := h1
  have e2 : m' ((c.tc : Thread Cert.ReferenceIdeal.nD Cert.ReferenceIdeal.τ).loc Cert.ReferenceIdeal.main_arg2) = m (c, Proc.devRef .tc Cert.KernelIdeal.main_arg2) := h2
  have e3 : m' ((c.tc : Thread Cert.ReferenceIdeal.nD Cert.ReferenceIdeal.τ).loc Cert.ReferenceIdeal.main_arg3) = m (c, Proc.devRef .tc Cert.KernelIdeal.main_arg3) := h3
  have e4 : m' ((c.tc : Thread Cert.ReferenceIdeal.nD Cert.ReferenceIdeal.τ).loc Cert.ReferenceIdeal.main_arg4) = m (c, Proc.devRef .tc Cert.KernelIdeal.main_arg4) := h4
  have e5 : m' ((c.tc : Thread Cert.ReferenceIdeal.nD Cert.ReferenceIdeal.τ).loc Cert.ReferenceIdeal.main_arg5) = m (c, Proc.devRef .tc Cert.KernelIdeal.main_arg5) := h5
  have e6 : m' ((c.tc : Thread Cert.ReferenceIdeal.nD Cert.ReferenceIdeal.τ).loc Cert.ReferenceIdeal.main_arg6) = m (c, Proc.devRef .tc Cert.KernelIdeal.main_arg6) := h6
  have e7 : m' ((c.tc : Thread Cert.ReferenceIdeal.nD Cert.ReferenceIdeal.τ).loc Cert.ReferenceIdeal.main_arg7) = m (c, Proc.devRef .tc Cert.KernelIdeal.main_arg7) := h7
  have e8 : m' ((c.tc : Thread Cert.ReferenceIdeal.nD Cert.ReferenceIdeal.τ).loc Cert.ReferenceIdeal.main_arg8) = m (c, Proc.devRef .tc Cert.KernelIdeal.main_arg8) := h8
  have e9 : m' ((c.tc : Thread Cert.ReferenceIdeal.nD Cert.ReferenceIdeal.τ).loc Cert.ReferenceIdeal.main_arg9) = m (c, Proc.devRef .tc Cert.KernelIdeal.main_arg9) := h9
  have e10 : m' ((c.tc : Thread Cert.ReferenceIdeal.nD Cert.ReferenceIdeal.τ).loc Cert.ReferenceIdeal.main_arg10) = m (c, Proc.devRef .tc Cert.KernelIdeal.main_arg10) := h10
  have e11 : m' ((c.tc : Thread Cert.ReferenceIdeal.nD Cert.ReferenceIdeal.τ).loc Cert.ReferenceIdeal.main_arg11) = m (c, Proc.devRef .tc Cert.KernelIdeal.main_arg11) := h11
  have e12 : m' ((c.tc : Thread Cert.ReferenceIdeal.nD Cert.ReferenceIdeal.τ).loc Cert.ReferenceIdeal.main_arg12) = m (c, Proc.devRef .tc Cert.KernelIdeal.main_arg12) := h12
  have e13 : m' ((c.tc : Thread Cert.ReferenceIdeal.nD Cert.ReferenceIdeal.τ).loc Cert.ReferenceIdeal.main_arg13) = m (c, Proc.devRef .tc Cert.KernelIdeal.main_arg13) := h13
  have e14 : m' ((c.tc : Thread Cert.ReferenceIdeal.nD Cert.ReferenceIdeal.τ).loc Cert.ReferenceIdeal.main_arg14) = m (c, Proc.devRef .tc Cert.KernelIdeal.main_arg14) := h14
  rw [head_eq Cert.ReferenceIdeal.Facts₀.bcast_S1_S1x1_1 Cert.ReferenceIdeal.Facts₀.bcast_S1x1_S64x1_0_1]
  unfold Cert.ReferenceIdeal.ValueP.res_main_v117
  rw [e0, e1, e2, e3, e4, e5, e6, e7, e8, e9, e10, e11, e12, e13, e14, h15, h16]
  refine congrArg (fun p => addf (Host.dotGeneral (F := Ideal) Cert.ReferenceIdeal.dot_S64x64_S64x1_S64x1_1_0_0_1_n_n none p _) _) ?_
  dsimp only [Cert.KernelIdeal.Gen.V]
  simp only [Cert.KernelIdeal.Gen.hostOps0, Cert.KernelIdeal.Gen.rectify_edges_1, Cert.KernelIdeal.Gen.hostOps0_2, Cert.KernelIdeal.Gen.rectify_nodes_1, Cert.KernelIdeal.Gen.hostOps0_4, Cert.KernelIdeal.Gen.rectify_edges_2, Cert.KernelIdeal.Gen.hostOps0_6, Cert.KernelIdeal.Gen.rectify_nodes_2, Cert.KernelIdeal.Gen.hostOps0_8,
    List.flatten_cons, List.flatten_nil, List.append_nil, List.cons_append, List.nil_append]
  after_results_simp
  simp only [hidden_eq Cert.ReferenceIdeal.Facts₀.bcast_S64_S1x64_1 Cert.ReferenceIdeal.Facts₀.bcast_S1x64_S800000x64_0_1
    Cert.ReferenceIdeal.Facts₀.concatenates_S800000x64_S800000x64_S800000x128_d1]
  simp only [rec0, rec1, rec2, rec3, rec4, rec5, rec6]
  first | with_reducible rfl | rfl

end Cert.Bridge

end
-- ==== Proof.lean ====
/-
  The certificate of one graph network with an edge-weighted message-passing layer applied twice, a mean pooling over 64
  graphs and an affine head: the kernel's program against its jnp reference, over the extended reals.

  One layer sends node rows `x` to `x' = x · W + b`, scores every edge `e` from its end nodes' rows by a hidden row
  `h e`, a rectifier and an edge weight `g e = 1 / (1 + exp (−(relu (h e) · w₂ + b₂)))`, and adds the messages `g e · x'[src e]`
  at the edges' targets. The two programs differ in the hidden row only:
      kernel's program   h e = (x' · Wm[0:64] + bm)[src e] + (x' · Wm[64:128])[dst e]
      reference          h e = (x'[src e] ‖ x'[dst e]) · Wm + bm
  and in where the head `pooled · Wh + bh` runs (inside the kernel's one region, with a zero accumulator; on the host in
  the reference). Entry by entry the two hidden rows are `((∑ s·Wm_top) + bm) + ∑ d·Wm_bot` and
  `((∑ s·Wm_top) + ∑ d·Wm_bot) + bm`: a sum over a joined row splits at the seam, and addition of extended reals is
  commutative and associative whatever its terms are, so no entry needs to be finite and the precondition is never
  opened. Every other operation is the same operation of the same operands in both programs.

  The three frames: the kernel's and the idealized kernel's are the generated frame certificates; the reference has no
  region, and its frame is its run with the result dropped. The ideal pass's ledger is empty, so `preserves` is `True`.
  The algebraic claim: the kernel's run leaves the body's stored value of (pooled features, weights, bias) in the result
  array (Proof/KernelValue.lean); that value is the term the reference's run ends at (Proof/Bridge.lean, over
  Proof/HiddenStage.lean and the general lemmas of Proof/LibSplitHidden.lean).
-/
import proofs.«144600_g31181462569269_retrytranche2_1411_2_alg».proof.Defs
import proofs.«144600_g31181462569269_retrytranche2_1411_2_alg».proof.Proof.Gen.Kernel
import proofs.«144600_g31181462569269_retrytranche2_1411_2_alg».proof.Proof.Gen.Kernel.Skeleton
import proofs.«144600_g31181462569269_retrytranche2_1411_2_alg».proof.Proof.Gen.Kernel.Launch
import proofs.«144600_g31181462569269_retrytranche2_1411_2_alg».proof.Proof.Gen.Kernel.Points
import proofs.«144600_g31181462569269_retrytranche2_1411_2_alg».proof.Proof.Gen.Kernel.Frame
import proofs.«144600_g31181462569269_retrytranche2_1411_2_alg».proof.Proof.Gen.KernelIdeal
import proofs.«144600_g31181462569269_retrytranche2_1411_2_alg».proof.Proof.Gen.KernelIdeal.Skeleton
import proofs.«144600_g31181462569269_retrytranche2_1411_2_alg».proof.Proof.Gen.KernelIdeal.Launch
import proofs.«144600_g31181462569269_retrytranche2_1411_2_alg».proof.Proof.Gen.KernelIdeal.Points
import proofs.«144600_g31181462569269_retrytranche2_1411_2_alg».proof.Proof.Gen.KernelIdeal.Frame
import proofs.«144600_g31181462569269_retrytranche2_1411_2_alg».proof.Proof.Gen.ReferenceIdeal
import proofs.«144600_g31181462569269_retrytranche2_1411_2_alg».proof.Proof.Gen.Pre_finite_inputs
import proofs.«144600_g31181462569269_retrytranche2_1411_2_alg».proof.Proof.KernelValue
import proofs.«144600_g31181462569269_retrytranche2_1411_2_alg».proof.Proof.ReferenceRun
import proofs.«144600_g31181462569269_retrytranche2_1411_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing: the ledger is empty. -/
theorem preserves : Cert.preserves_Kernel_KernelIdeal := trivial

/-- Both runs end, from memories that agree on the arguments, with the result array at the reference's term. -/
theorem algebraic : Cert.algebraic_KernelIdeal_ReferenceIdeal := by
  intro m ρ m' ρ' _ hagree
  refine ⟨fun c => Cert.ReferenceIdeal.ValueP.res_main_v117 m' c, ?_, Cert.ReferenceIdeal.ValueP.run (F := Ideal) m' ρ'⟩
  exact (θ_run Cert.KernelIdeal.defs _ _).mono
    (fun _ h c => ⟨(h c).1.trans (Cert.Bridge.result_eq m m' c (hagree c)), (h c).2⟩)
    (Cert.KernelIdeal.HeadValue.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
